-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S256x2048 .f32
  ∧ IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S256x2048 : Shape := ⟨2, ![256, 2048]⟩
abbrev S512x2048 : Shape := ⟨2, ![512, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  A binarized dense layer, as one function of its two argument arrays, and the law on the extended reals that
  joins the two spellings of the sign.

  The weights k[q, j] (2048 × 2048) are replaced by their signs, W[q, j] = sign k[q, j] ∈ {-1, 0, 1}; the
  activations are the signs of the matrix product with the input x (8192 × 2048):
      out[r, j] = sign (∑ q, x[r, q] · W[q, j]).

  One program spells a sign by the order (−1 below zero, 1 above it, the value itself at zero); the other spells it
  as the forward value of the straight-through estimator, c + (sign v − c) with c = clip(v, −1, 1) = min 1 (max (−1) v).
  On the extended reals c is ALWAYS a real number — it lies between −1 and 1 whatever v is, the infinities
  included — and for a real c the sum c + (s − c) is s for every extended real s: when s is real the subtraction and
  the addition are the real ones, and at s = ±∞ both leave ±∞. So the two spellings agree at every v, and no
  finiteness of the inputs is used.
-/
import Idealize.ShloMosaic.PureOps.Ideal.Laws
import Idealize.ShloMosaic.PureOps.IdealRules
import Idealize.ShloMosaic.Lib.ValueIdx

noncomputable section

namespace Cert.BinaryDense

open Idealize.ShloMosaic Idealize.ShloMosaic.ValueIdx

/-- The input's shape, rows × features. -/
abbrev SX : Shape := ⟨2, ![8192, 2048]⟩
/-- The weights' shape, features × units. -/
abbrev SK : Shape := ⟨2, ![2048, 2048]⟩

/-- The binarized weights: the sign of each weight. -/
def binW (k : SK.Idx → EReal) : SK.Idx → EReal := fun j => Ideal.sign (k j)

/-- The sign of a matrix product's entry at row `r` and unit `j`: of the sum over the features `q` of the input at
    (r, q) times the weight at (q, j). -/
def signDotAt (x : SX.Idx → EReal) (w : SK.Idx → EReal) (r : Fin 8192) (j : Fin 2048) : EReal :=
  Ideal.sign (∑ q : Fin 2048, x (ix2 r q) * w (ix2 q j))

/-- The signs of a matrix product, as an array: `signDotAt` at each index's two coordinates. -/
def signDot (x : SX.Idx → EReal) (w : SK.Idx → EReal) : SX.Idx → EReal :=
  fun i => signDotAt x w ⟨(i 0).val, idx2_lt0 i⟩ ⟨(i 1).val, idx2_lt1 i⟩

/-- The layer's result: the signs of the product of the input with the binarized weights. -/
def out (x : SX.Idx → EReal) (k : SK.Idx → EReal) : SX.Idx → EReal := signDot x (binW k)

/-- Adding back a REAL number that was subtracted: `c + (s - c) = s` for every extended real `s`. -/
theorem real_add_sub_cancel (c : ℝ) (s : EReal) : (c : EReal) + (s - (c : EReal)) = s := by
  induction s using EReal.rec with
  | bot => simp
  | coe x => rw [← EReal.coe_sub, ← EReal.coe_add]; exact congrArg _ (by ring)
  | top => simp

/-- A value clipped between two real bounds is a real number, so adding it back after subtracting it changes nothing. -/
theorem clip_add_sub_cancel (lo hi : ℝ) (v s : EReal) :
    min (hi : EReal) (max (lo : EReal) v) + (s - min (hi : EReal) (max (lo : EReal) v)) = s := by
  have h1 : min (hi : EReal) (max (lo : EReal) v) ≠ ⊤ :=
    ne_top_of_le_ne_top (EReal.coe_ne_top hi) (min_le_left _ _)
  have h2 : min (hi : EReal) (max (lo : EReal) v) ≠ ⊥ :=
    ne_bot_of_le_ne_bot (EReal.coe_ne_bot (min hi lo))
      (le_min (EReal.coe_le_coe_iff.2 (min_le_left hi lo))
        ((EReal.coe_le_coe_iff.2 (min_le_right hi lo)).trans (le_max_left _ _)))
  lift min (hi : EReal) (max (lo : EReal) v) to ℝ using ⟨h1, h2⟩ with c
  exact real_add_sub_cancel c s

/-- The straight-through estimator's forward value, over the f32 patterns of 1.0 and −1.0, is the sign. -/
theorem ste_sign_eq (v : EReal) :
    min (Ideal.ofBits .f32 0x3F800000#32) (max (Ideal.ofBits .f32 0xBF800000#32) v)
      + (Ideal.sign v - min (Ideal.ofBits .f32 0x3F800000#32) (max (Ideal.ofBits .f32 0xBF800000#32) v))
      = Ideal.sign v := by
  have h1 : Ideal.ofBits .f32 0x3F800000#32 = ((1 : ℝ) : EReal) :=
    (IdealRules.sign_bit.ideal_onePat .f32).trans EReal.coe_one.symm
  have hm : Ideal.ofBits .f32 0xBF800000#32 = ((-1 : ℝ) : EReal) :=
    (IdealRules.sign_bit.ideal_negOnePat .f32).trans (by simp)
  rw [h1, hm]
  exact clip_add_sub_cancel (-1) 1 v _

end Cert.BinaryDense

end
-- ==== Proof.RefValue.lean ====
/-
  The reference's result, read one operation at a time, is the binarized dense layer `BinaryDense.out` of its
  arguments.

  The reference clips and takes signs on the host: each of its two signs is the straight-through estimator's forward
  value c + (sign v − c), c the value clipped to [−1, 1], which is the sign itself on every extended real
  (`BinaryDense.ste_sign_eq`); between them stands one matrix product, at the ideal instance the plain sum over the
  2048 features of input entry times weight entry.
-/
import proofs.«107592_j72456098283938_2_alg».proof.Proof.Gen.ReferenceIdeal.Read
import proofs.«107592_j72456098283938_2_alg».proof.Proof.Spec

noncomputable section

namespace Cert.ReferenceIdeal.RefValue

open Cert.ReferenceIdeal Cert.ReferenceIdeal.Read Cert.BinaryDense
open Idealize.ShloMosaic Idealize.ShloMosaic.ValueIdx

/-- The matrix product's left operand index at output index `i` and feature `q`: row `i 0`, column `q`. -/
theorem lidx_eq (i : S8192x2048.Idx) (q : Fin 2048) : lidx_main_v4 i q = ix2 (⟨(i 0).val, idx2_lt0 i⟩ : Fin 8192) q :=
  funext fun a => by match a with | ⟨0, _⟩ => rfl | ⟨1, _⟩ => rfl

/-- Its right operand index: row `q`, column `i 1`. -/
theorem ridx_eq (i : S8192x2048.Idx) (q : Fin 2048) : ridx_main_v4 i q = ix2 q (⟨(i 1).val, idx2_lt1 i⟩ : Fin 2048) :=
  funext fun a => by match a with | ⟨0, _⟩ => rfl | ⟨1, _⟩ => rfl

/-- The reference's last stage is the layer: both straight-through signs are signs, and the product between them is
    the sum over the features. -/
theorem result_eq (x0 : (⟨S8192x2048, .f32⟩ : BufTy).Contents (Elt Ideal)) (x1 : (⟨S2048x2048, .f32⟩ : BufTy).Contents (Elt Ideal)) :
    val_main_v8 (F := Ideal) x0 x1 = out x0 x1 := by
  funext i
  simp only [val_main_v8_apply, val_main_v7_apply, val_main_v6_apply, val_main_v5_apply, val_main_call1_v4_apply,
    val_main_call1_v3_apply, val_main_cst_2_apply, val_main_call1_v2_apply, val_main_call1_v1_apply,
    val_main_call1_v0_apply, val_main_cst_1_apply, val_main_v4_apply, val_main_v3_apply, val_main_v2_apply,
    val_main_v1_apply, val_main_v0_apply, val_main_call0_v4_apply, val_main_call0_v3_apply, val_main_cst_0_apply,
    val_main_call0_v2_apply, val_main_call0_v1_apply, val_main_call0_v0_apply, val_main_cst_apply,
    Ideal.maximumf_def, Ideal.minimumf_def, Ideal.addf_def, Ideal.subf_def, Ideal.hostUnary_sign_def, Ideal.ofBits_def,
    ste_sign_eq, lidx_eq, ridx_eq]
  rfl

end Cert.ReferenceIdeal.RefValue

end
-- ==== Proof.KernelRun.lean ====
/-
  The idealized kernel's run, with its result array NAMED.

  The program is two launches one after the other: the first writes the binarized weights, the second reads them
  whole at every grid point. The buffer contents at the two boundaries are a fold through the program: at the first
  launch's exit its output array holds what its write-backs leave and everything else is as launched; at the second's
  exit likewise from there. Run over the two launches as segments, every weakly fair execution terminates with EVERY
  buffer that outlives a launch at the fold's last contents; read at the result's buffer, that is what the second
  launch's write-backs leave, and at an argument's buffer, the launch contents.
-/
import proofs.«107592_j72456098283938_2_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state is read for: every buffer that outlives a launch holds the fold's last contents. -/
def AllAt (c : Dev nD) (s : MemSt nD τ sig (Elt F)) : Prop :=
  ∀ b ∈ Pipeline.ucRefs τ sig, s.mem (((c : Thread nD τ)).1, b) = W2 m ρ c b

/-- The launch element yields the pipelines' ghost state; nothing else is dealt per core. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · rw [BI.bigSep_emp_const]; iempintro

/-- The last thread state, beside a final state, says the state's memory holds the last contents at every buffer. -/
theorem read_last (c : Dev nD) (s' : Phys nD τ sig (Elt F)) :
    iprop(Tₙ m ρ c ∗ SI s') ⊢ |={Set.univ}=> iprop(⌜AllAt m ρ c s'.mem⌝ ∗ SI s') := by
  iintro ⟨⟨Hh, -⟩, HSI⟩
  unfold StableHlo.held AllAt
  imodintro
  iapply (pointsTo_read_all (Pipeline.ucRefs τ sig) (fun b => (((c : Thread nD τ)).1, b)) (W2 m ρ c) s')
  isplitl [Hh] <;> iassumption

set_option backward.isDefEq.respectTransparency.types false in
/-- Every weakly fair execution of the two launches terminates, nothing faulting, with every buffer that outlives a
    launch at the fold's last contents. -/
theorem run_all : θ_run defs (onTc (τ := τ) (main (F := F))) ⟨m, fun _ => 0, ρ⟩ (fun r => ∀ c : Dev nD, AllAt m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := AllAt m ρ)
    (hfin := read_last m ρ)
    (hQ := fun s h => h)

/-- The result's buffer is the second launch's output array. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c)⟩)
    (run_all m ρ)

end Cert.KernelIdeal.RunValue

end
-- ==== Proof.Weights.lean ====
/-
  What the first launch leaves in its output array: the binarized weights.

  The launch walks the weights in 8 blocks of 256 rows (all 2048 columns); at block `t` the body loads the block, takes
  the sign of each entry and stores the result. Its input and output windows move together (both at block row `t`,
  column block 0), so entry (y₀, y₁) of the stored block is the sign of the weight at row t·256 + y₀, column y₁: block
  `t` of the array of signs. The 8 blocks tile the rows — row `r` lies in block `r / 256` — so the array ends holding the
  sign of every weight.
-/
import proofs.«107592_j72456098283938_2_alg».proof.Proof.Gen.KernelIdeal.Frame
import proofs.«107592_j72456098283938_2_alg».proof.Proof.Spec
import Idealize.ShloMosaic.Lib.Pipeline.Value

noncomputable section

namespace Cert.KernelIdeal.Weights

open Cert.KernelIdeal Cert.KernelIdeal.Gen Cert.BinaryDense
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin : (![0, 0] : Fin 2 → Nat) = fun _ => 0 := funext fun a => by fin_cases a <;> rfl

/-- The body's stored value is the sign of the loaded block, entry by entry. -/
theorem stored_eq_sign (v : Vec Ideal S256x2048 .f32) : k0_pay1 (F := Ideal) v = fun j => Ideal.sign (v j) :=
  funext fun j => Ideal.jnp_sign_eq_sign_f32 (v j)

/-- The two windows' block indices over the grid: the input's and the output's agree, and the output's block row is
    the grid point, its block column 0. -/
theorem block_indices : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What grid point `t` writes back is block `t` of the array of signs of the weights as the launch finds them. -/
theorem written_block (c : Dev nD) (t : Fin cfg0.N) :
    (dat0 V c).flushed 1 t = ((cfg0.win 1).blk t).view.read (Elt Ideal) (binW (V c main_arg1)) := by
  show (cfg0.win 1).cut (grid0.coords t) ((dat0 V c).after 1 t) = _
  rw [after0_1]
  unfold out0_1
  rw [View.canon_unit_zero origin]
  simp only [View.ld_unit_zero (S := S256x2048) origin]
  rw [stored_eq_sign]
  obtain ⟨e0, e1, -, -⟩ := block_indices t
  funext j
  show Ideal.sign (V c main_arg1 (((cfg0.win 0).blk t).view.emb j)) = Ideal.sign (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * (j 1).val = win0_1.index t (1 : Fin 2) * 2048 + 1 * (j 1).val; omega
  rw [h0]

/-- An index of the array is in point `t`'s block iff each coordinate is in the block's range on its axis. -/
theorem mem_block (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v0).slice (win0_1.rect t)).set ↔ _
  rw [View.set_slice_whole, Rect.mem_set_unit]
  exact Iff.rfl

/-- Every index of the array is in some point's block: row `r` is in block `r / 256`. -/
theorem covered (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  have hN : grid0.N = 8 := N_0
  obtain ⟨t, ht⟩ : ∃ t : Fin cfg0.N, t.val = (i 0).val / 256 :=
    ⟨⟨(i 0).val / 256, by show (i 0).val / 256 < grid0.N; rw [hN]; omega⟩, rfl⟩
  obtain ⟨-, -, e2, e3⟩ := block_indices t
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

/-- After the launch its output array holds the sign of every weight. -/
theorem array_eq (c : Dev nD) : (dat0 V c).arrAt 1 cfg0.N = binW (V c main_arg1) :=
  (dat0 V c).arrAt_eq_of_cover 1 (binW (V c main_arg1)) (fun t _ => written_block V c t) covered

end Cert.KernelIdeal.Weights

end
-- ==== Proof.Activations.lean ====
/-
  What the second launch leaves in its output array: the signs of the product of the input with whatever weight
  array it finds.

  The launch walks the input in 16 blocks of 512 rows; at block `t` the body loads the input block (512 × 2048) and the
  WHOLE weight array (2048 × 2048, the same at every point), multiplies them into a zero accumulator — at the ideal
  instance entry (y₀, y₁) of the product is the plain sum over the 2048 features `q` of input (y₀, q) times weight
  (q, y₁), the change of the operands' float format being the identity — and stores the sign of each entry. The input
  and output windows move together (block row `t`), the weight window stays at the origin, so the stored block is
  block `t` of the array of signs of the whole product. The 16 blocks tile the rows: row `r` lies in block `r / 512`.
-/
import proofs.«107592_j72456098283938_2_alg».proof.Proof.Gen.KernelIdeal.Frame
import proofs.«107592_j72456098283938_2_alg».proof.Proof.Spec
import Idealize.ShloMosaic.Lib.Pipeline.Value
import Idealize.ShloMosaic.Lib.ValueIdx
import Idealize.ShloMosaic.PureOps.Ideal.Laws

noncomputable section

namespace Cert.KernelIdeal.Activations

open Cert.KernelIdeal Cert.KernelIdeal.Gen Cert.BinaryDense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's accesses start at the block's origin. -/
theorem origin : (![0, 0] : Fin 2 → Nat) = fun _ => 0 := funext fun a => by fin_cases a <;> rfl

/-- The product the body forms from its two loaded blocks. -/
def prod (v0 : Vec Ideal S512x2048 .f32) (v2 : Vec Ideal S2048x2048 .bf16) : FVec Ideal S512x2048 .f32 :=
  matmul dot_S512x2048_S2048x2048_S512x2048_1_0_0_1_n_n none (truncf .bf16 v0 bitsLt_bf16_f32 : FVec Ideal S512x2048 .bf16)
    (shapeCast S2048x2048 v2 shapeCasts_S2048x2048_S2048x2048 : FVec Ideal S2048x2048 .bf16) (constant S512x2048 .f32 0x00000000#32)

/-- The body's stored value is the sign of that product, entry by entry. -/
theorem stored_eq_sign (v0 : Vec Ideal S512x2048 .f32) (v2 : Vec Ideal S2048x2048 .bf16) :
    k1_pay1 (F := Ideal) v0 v2 = fun j => Ideal.sign (prod v0 v2 j) :=
  funext fun j => Ideal.jnp_sign_eq_sign_f32 (prod v0 v2 j)

/-- The product's left operand is read at the output's row, -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- and at the contracted feature; -/
theorem lhs_feature (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- the right operand at the contracted feature, -/
theorem rhs_feature (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- and at the output's column. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- An entry of the product is the sum over the features of input entry times weight entry. -/
theorem prod_apply (v0 : Vec Ideal S512x2048 .f32) (v2 : Vec Ideal S2048x2048 .bf16) (j : S512x2048.Idx) :
    prod v0 v2 j = ∑ q : Fin 2048, v0 (ix2 (⟨(j 0).val, idx2_lt0 j⟩ : Fin 512) q) * v2 (ix2 q (⟨(j 1).val, idx2_lt1 j⟩ : Fin 2048)) := by
  unfold prod
  refine (Ideal.matmul_constant_zero_apply dot_S512x2048_S2048x2048_S512x2048_1_0_0_1_n_n none _ _ j).trans ?_
  rw [← Equiv.sum_comp (contrEquiv1 dot_S512x2048_S2048x2048_S512x2048_1_0_0_1_n_n 2048 rfl rfl).symm]
  refine Finset.sum_congr rfl fun q _ => ?_
  have hq := contrEquiv1_symm_val dot_S512x2048_S2048x2048_S512x2048_1_0_0_1_n_n 2048 rfl rfl q
  have el : dot_S512x2048_S2048x2048_S512x2048_1_0_0_1_n_n.lhsIdx j ((contrEquiv1 dot_S512x2048_S2048x2048_S512x2048_1_0_0_1_n_n 2048 rfl rfl).symm q) = ix2 (⟨(j 0).val, idx2_lt0 j⟩ : Fin 512) q := funext fun a => Fin.ext (by
    match a with
    | ⟨0, _⟩ => exact lhs_row _ _
    | ⟨1, _⟩ => exact (lhs_feature _ _).trans hq)
  have er : dot_S512x2048_S2048x2048_S512x2048_1_0_0_1_n_n.rhsIdx j ((contrEquiv1 dot_S512x2048_S2048x2048_S512x2048_1_0_0_1_n_n 2048 rfl rfl).symm q) = ix2 q (⟨(j 1).val, idx2_lt1 j⟩ : Fin 2048) := funext fun a => Fin.ext (by
    match a with
    | ⟨0, _⟩ => exact (rhs_feature _ _).trans hq
    | ⟨1, _⟩ => exact rhs_col _ _)
  rw [el, er, shapeCast_self]
  rfl

/-- The signs of a product, read at an index: the sum runs over the features at the index's row and column. -/
theorem signDot_apply (x : SX.Idx → EReal) (w : SK.Idx → EReal) (i : SX.Idx) :
    signDot x w i = Ideal.sign (∑ q : Fin 2048, x (ix2 (⟨(i 0).val, idx2_lt0 i⟩ : Fin 8192) q) * w (ix2 q (⟨(i 1).val, idx2_lt1 i⟩ : Fin 2048))) := rfl

/-- The three windows' block indices over the grid: the input's block row is the output's, which is the grid point;
    every other block index is 0. -/
theorem block_indices : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the signs of the product of the input and the weight array as the
    launch finds them. -/
theorem written_block (c : Dev nD) (t : Fin cfg1.N) :
    (dat1 V c).flushed 2 t = ((cfg1.win 2).blk t).view.read (Elt Ideal) (signDot (V c main_arg0) (V c main_v0)) := by
  show (cfg1.win 2).cut (grid1.coords t) ((dat1 V c).after 2 t) = _
  rw [after1_2]
  unfold out1_2
  rw [View.canon_unit_zero origin]
  simp only [View.ld_unit_zero (S := S512x2048) origin, View.ld_unit_zero (S := S2048x2048) origin]
  rw [stored_eq_sign]
  obtain ⟨e0, e1, e2, e3, e4, e5⟩ := block_indices t
  funext j
  show Ideal.sign (prod (iblk1 V c 0 t) (iblk1 V c 1 t) j) = signDot (V c main_arg0) (V c main_v0) (((cfg1.win 2).blk t).view.emb j)
  rw [signDot_apply]
  refine congrArg Ideal.sign ((prod_apply (iblk1 V c 0 t) (iblk1 V c 1 t) j).trans (Finset.sum_congr rfl fun q _ => ?_))
  refine congrArg₂ (· * ·) ?_ ?_
  · show V c main_arg0 (((cfg1.win 0).blk t).view.emb (ix2 (⟨(j 0).val, (j 0).isLt⟩ : Fin 512) q)) = _
    refine congrArg (V c main_arg0) (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 2048 + 1 * q.val = q.val; omega
  · show V c main_v0 (((cfg1.win 1).blk t).view.emb (ix2 q (⟨(j 1).val, (j 1).isLt⟩ : Fin 2048))) = _
    refine congrArg (V c main_v0) (funext fun a => Fin.ext ?_)
    match a with
    | ⟨0, _⟩ => show win1_1.index t (0 : Fin 2) * 2048 + 1 * q.val = q.val; omega
    | ⟨1, _⟩ => show win1_1.index t (1 : Fin 2) * 2048 + 1 * (j 1).val = win1_2.index t (1 : Fin 2) * 2048 + 1 * (j 1).val; omega

/-- An index of the array is in point `t`'s block iff each coordinate is in the block's range on its axis. -/
theorem mem_block (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v1).slice (win1_2.rect t)).set ↔ _
  rw [View.set_slice_whole, Rect.mem_set_unit]
  exact Iff.rfl

/-- Every index of the array is in some point's block: row `r` is in block `r / 512`. -/
theorem covered (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  have hN : grid1.N = 16 := N_1
  obtain ⟨t, ht⟩ : ∃ t : Fin cfg1.N, t.val = (i 0).val / 512 :=
    ⟨⟨(i 0).val / 512, by show (i 0).val / 512 < grid1.N; rw [hN]; omega⟩, rfl⟩
  obtain ⟨-, -, -, -, e4, e5⟩ := block_indices t
  refine ⟨t, flush1_2 t, ?_⟩
  rw [mem_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- After the launch its output array holds the signs of the product of the input and the weight array it found. -/
theorem array_eq (c : Dev nD) : (dat1 V c).arrAt 2 cfg1.N = signDot (V c main_arg0) (V c main_v0) :=
  (dat1 V c).arrAt_eq_of_cover 2 (signDot (V c main_arg0) (V c main_v0)) (fun t _ => written_block V c t) covered

end Cert.KernelIdeal.Activations

end
-- ==== Proof.Layer.lean ====
/-
  The idealized kernel's result is the binarized dense layer of its two arguments.

  Follow the buffer contents through the two launches. The second launch finds the input as launched (nothing writes
  an argument) and, in the weight buffer, what the first launch left there: the sign of every weight as launched. It
  leaves the signs of the product of the two — the layer's result.
-/
import proofs.«107592_j72456098283938_2_alg».proof.Proof.KernelRun
import proofs.«107592_j72456098283938_2_alg».proof.Proof.Weights
import proofs.«107592_j72456098283938_2_alg».proof.Proof.Activations

noncomputable section

namespace Cert.KernelIdeal.Layer

open Cert.KernelIdeal Cert.KernelIdeal.Gen Cert.BinaryDense
open Idealize.ShloMosaic Idealize.ShloMosaic.TcCoe Idealize.SL.Sem

variable (m : (ℓ : Loc nD τ sig) → Buf (Elt Ideal) ℓ) (ρ : Dev nD → PrngReg)

/-- The second launch finds the input as launched: the first launch's arrays are the weights and their signs. -/
theorem input_kept (c : Dev nD) : V1 m ρ c main_arg0 = m ((c : Thread nD τ).loc main_arg0) :=
  W1_of_ne m ρ c main_arg0 (by decide)

/-- The second launch finds, in the weight buffer, the signs of the weights as launched. -/
theorem weights_binarized (c : Dev nD) : V1 m ρ c main_v0 = binW (m ((c : Thread nD τ).loc main_arg1)) :=
  (W1_arr m ρ c 1).trans (Weights.array_eq (V0 m ρ) c)

/-- So the second launch's output array ends at the layer's result. -/
theorem result_eq (c : Dev nD) :
    (dat1 (V1 m ρ) c).arrAt 2 cfg1.N = out (m ((c : Thread nD τ).loc main_arg0)) (m ((c : Thread nD τ).loc main_arg1)) := by
  rw [Activations.array_eq (V1 m ρ) c, input_kept m ρ c, weights_binarized m ρ c]
  rfl

/-- Every weakly fair execution of the idealized kernel terminates with its result at the layer of its arguments,
    the arguments unchanged. -/
theorem run : θ_run defs (onTc (τ := τ) (main (F := Ideal))) ⟨m, fun _ => 0, ρ⟩ (fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (RunValue.run_named m ρ)

end Cert.KernelIdeal.Layer

end
-- ==== Proof.lean ====
/-
  A binarized dense layer computed two ways agrees on the extended reals.

  The kernel binarizes the weights in one launch (the sign of each weight) and in a second multiplies the input by
  them and takes the sign of each entry. The reference does the same on the host, spelling each sign as the
  straight-through estimator's forward value c + (sign v − c) with c the value clipped to [−1, 1]. The clipped value
  is always a real number, so adding it back after subtracting it changes nothing, at the infinities too: both
  programs compute  out[r, j] = sign (∑ q, x[r, q] · sign k[q, j])  (Proof/Spec.lean), and no finiteness is used.

  The three frames are the generated ones (the reference's is its generated run with the result dropped); the
  idealization's two rewrites are the rule's statement at the two blocks' shapes; the value claim sets the kernel's
  run (Proof/Layer.lean) beside the reference's (Proof/RefValue.lean), both ending at `BinaryDense.out` of arguments
  that agree.
-/
import proofs.«107592_j72456098283938_2_alg».proof.Defs
import proofs.«107592_j72456098283938_2_alg».proof.Proof.Gen.Kernel
import proofs.«107592_j72456098283938_2_alg».proof.Proof.Gen.Kernel.Skeleton
import proofs.«107592_j72456098283938_2_alg».proof.Proof.Gen.Kernel.Launch
import proofs.«107592_j72456098283938_2_alg».proof.Proof.Gen.Kernel.Points
import proofs.«107592_j72456098283938_2_alg».proof.Proof.Gen.Kernel.Frame
import proofs.«107592_j72456098283938_2_alg».proof.Proof.Gen.KernelIdeal
import proofs.«107592_j72456098283938_2_alg».proof.Proof.Gen.KernelIdeal.Skeleton
import proofs.«107592_j72456098283938_2_alg».proof.Proof.Gen.KernelIdeal.Launch
import proofs.«107592_j72456098283938_2_alg».proof.Proof.Gen.KernelIdeal.Points
import proofs.«107592_j72456098283938_2_alg».proof.Proof.Gen.KernelIdeal.Frame
import proofs.«107592_j72456098283938_2_alg».proof.Proof.Gen.ReferenceIdeal
import proofs.«107592_j72456098283938_2_alg».proof.Proof.Gen.ReferenceIdeal.Run
import proofs.«107592_j72456098283938_2_alg».proof.Proof.Gen.ReferenceIdeal.Read
import proofs.«107592_j72456098283938_2_alg».proof.Proof.Gen.Pre_finite_inputs
import proofs.«107592_j72456098283938_2_alg».proof.Proof.RefValue
import proofs.«107592_j72456098283938_2_alg».proof.Proof.Layer
import Idealize.ShloMosaic.Adequacy
import Idealize.ShloMosaic.Init

noncomputable section

namespace Cert.Proof

open Idealize.ShloMosaic Idealize.ShloMosaic.TcCoe Idealize.SL.Sem

/-- The idealization's two rewrites of a sign-bit read, one per launch, each at its block's shape. -/
theorem preserves : Cert.preserves_Kernel_KernelIdeal :=
  ⟨IdealRules.sign_bit.statement Cert.KernelIdeal.S256x2048 .f32,
   IdealRules.sign_bit.statement Cert.KernelIdeal.S512x2048 .f32⟩

/-- Both runs end at the layer of their arguments, and the arguments agree. -/
theorem algebraic [hPre : Cert.Pre_finite_inputs.Facts] : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  preserves,
  algebraic⟩

end Cert.Proof

end
